-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256x256 : Shape := ⟨2, ![256, 256]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S50000x128 .f32) (main_arg1 : FVec F S128x256 .f32) (main_arg2 : FVec F S256x256 .f32) (main_arg3 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S50000x128 : Shape := ⟨2, ![50000, 128]⟩
abbrev S128x256 : Shape := ⟨2, ![128, 256]⟩
abbrev S256x256 : Shape := ⟨2, ![256, 256]⟩
abbrev S2x800000 : Shape := ⟨2, ![2, 800000]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x256 : Shape := ⟨2, ![50000, 256]⟩
abbrev S2000x128 : Shape := ⟨2, ![2000, 128]⟩
abbrev S2000x256 : Shape := ⟨2, ![2000, 256]⟩

abbrev nBuf : Space → Nat
  | .hbm => 62
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256x256, .f32⟩
  | .hbm, ⟨3, _⟩ => ⟨S2x800000, .i32⟩
  | .hbm, ⟨4, _⟩ => ⟨S50000, .i32⟩
  | .hbm, ⟨5, _⟩ => ⟨S1x50000, .i32⟩
  | .hbm, ⟨6, _⟩ => ⟨S1x50000, .i32⟩
  | .hbm, ⟨7, _⟩ => ⟨S2x50000, .i32⟩
  | .hbm, ⟨8, _⟩ => ⟨S2x850000, .i32⟩
  | .hbm, ⟨9, _⟩ => ⟨S1x850000, .i32⟩
  | .hbm, ⟨10, _⟩ => ⟨S850000, .i32⟩
  | .hbm, ⟨11, _⟩ => ⟨S1x850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S850000x1, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S256x256, .f32⟩
  | .local _ .vmem, ⟨4, _⟩ => ⟨S2000x256, .f32⟩
  | .local _ .vmem, ⟨5, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v44) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256x256 : Shape := ⟨2, ![256, 256]⟩
abbrev S2x800000 : Shape := ⟨2, ![2, 800000]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x256 : Shape := ⟨2, ![50000, 256]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256x256, .f32⟩
  | .hbm, ⟨3, _⟩ => ⟨S2x800000, .i32⟩
  | .hbm, ⟨4, _⟩ => ⟨S50000, .i32⟩
  | .hbm, ⟨5, _⟩ => ⟨S1x50000, .i32⟩
  | .hbm, ⟨6, _⟩ => ⟨S1x50000, .i32⟩
  | .hbm, ⟨7, _⟩ => ⟨S2x50000, .i32⟩
  | .hbm, ⟨8, _⟩ => ⟨S2x850000, .i32⟩
  | .hbm, ⟨9, _⟩ => ⟨S1x850000, .i32⟩
  | .hbm, ⟨10, _⟩ => ⟨S850000, .i32⟩
  | .hbm, ⟨11, _⟩ => ⟨S1x850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S850000x1, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call1_cst : Ref sig .tc := ⟨.hbm, 62, rfl⟩
abbrev main_call1_v0 : Ref sig .tc := ⟨.hbm, 63, rfl⟩
abbrev main_v46 : Ref sig .tc := ⟨.hbm, 64, rfl⟩
abbrev main_v47 : Ref sig .tc := ⟨.hbm, 65, rfl⟩
abbrev main_call2_cst : Ref sig .tc := ⟨.hbm, 66, rfl⟩
abbrev main_call2_v0 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S_S50000x256 : S_.BroadcastsInDim S50000x256 (![] : Fin 0 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Mlp.lean ====
/-
  Two dense layers, each followed by a rectifier, entry by entry on the extended reals.

  One output row of a layer depends on one input row only: entry `q` of the layer applied to a row `r` with weights `w`
  is `max (∑ k, r k · w (k, q)) 0`.  Two layers composed, on a feature matrix `h` with weights `w0` and `w1`:

      mlp h w0 w1 (p, q) = max (∑ j, max (∑ k, h (p, k) · w0 (k, j)) 0 · w1 (j, q)) 0.

  Because row `p` of the result reads row `p` of `h` and nothing else of it, the result of the layers applied to a
  block of consecutive rows of `h` is the same block of rows of the result applied to the whole of `h`.
-/
import Idealize.ShloMosaic.Lib.ValueIdx
import Idealize.ShloMosaic.PureOps.Ideal.Laws

noncomputable section

open scoped BigOperators

namespace Cert.Mlp

open Idealize.ShloMosaic Idealize.ShloMosaic.ValueIdx

/-- Entry `q` of one rectified dense layer applied to one row. -/
def entry {K C : Nat} (row : Fin K → EReal) (w : (⟨2, ![K, C]⟩ : Shape).Idx → EReal) (q : Fin C) : EReal :=
  max (∑ k : Fin K, row k * w (ix2 k q)) 0

/-- Entry `q` of the two layers applied to one row of 128 features. -/
def mlpRow (row : Fin 128 → EReal) (w0 : (⟨2, ![128, 256]⟩ : Shape).Idx → EReal)
    (w1 : (⟨2, ![256, 256]⟩ : Shape).Idx → EReal) (q : Fin 256) : EReal :=
  entry (fun j : Fin 256 => entry row w0 j) w1 q

/-- The two layers applied to every row of a 50000 × 128 feature matrix. -/
def mlp (h : (⟨2, ![50000, 128]⟩ : Shape).Idx → EReal) (w0 : (⟨2, ![128, 256]⟩ : Shape).Idx → EReal)
    (w1 : (⟨2, ![256, 256]⟩ : Shape).Idx → EReal) : (⟨2, ![50000, 256]⟩ : Shape).Idx → EReal :=
  fun i => mlpRow (fun k : Fin 128 => h (ix2 (i 0) k)) w0 w1 (i 1)

/-- The two layers at a column depend on the row and the weights entry by entry. -/
theorem mlpRow_congr {row row' : Fin 128 → EReal} {w0 w0' : (⟨2, ![128, 256]⟩ : Shape).Idx → EReal}
    {w1 w1' : (⟨2, ![256, 256]⟩ : Shape).Idx → EReal} (q : Fin 256) (hr : ∀ k, row k = row' k) (h0 : ∀ y, w0 y = w0' y)
    (h1 : ∀ y, w1 y = w1' y) : mlpRow row w0 w1 q = mlpRow row' w0' w1' q := by
  obtain rfl : row = row' := funext hr
  obtain rfl : w0 = w0' := funext h0
  obtain rfl : w1 = w1' := funext h1
  rfl

/-- The result at an index whose coordinates are known by value: row `p`, column `q`. -/
theorem mlp_apply_of_val (h : (⟨2, ![50000, 128]⟩ : Shape).Idx → EReal) (w0 : (⟨2, ![128, 256]⟩ : Shape).Idx → EReal)
    (w1 : (⟨2, ![256, 256]⟩ : Shape).Idx → EReal) (i : (⟨2, ![50000, 256]⟩ : Shape).Idx) (p : Fin 50000) (q : Fin 256)
    (h0 : (i 0).val = p.val) (h1 : (i 1).val = q.val) :
    mlp h w0 w1 i = mlpRow (fun k : Fin 128 => h (ix2 p k)) w0 w1 q := by
  have e : i = ix2 p q := funext fun a => Fin.ext (by
    match a with
    | ⟨0, _⟩ => exact h0
    | ⟨1, _⟩ => exact h1)
  subst e
  rfl

end Cert.Mlp

end
-- ==== Proof.RefIsMlp.lean ====
/-
  The reference's result is the two rectified layers applied to its propagated features.

  After the propagation step the reference multiplies the features by the first weight matrix, takes the maximum with
  zero, multiplies by the second weight matrix and takes the maximum with zero again.  On the extended reals each
  product, read at an entry `(p, q)`, is the sum over the contracted axis of row `p` of the left factor times column
  `q` of the right, so the result at `(p, q)` is `mlp` of the propagated features at `(p, q)`.
-/
import proofs.«178463_j80994493268501_1_alg».proof.Proof.RefRead
import proofs.«178463_j80994493268501_1_alg».proof.Proof.Mlp

noncomputable section

open scoped BigOperators

namespace Cert.ReferenceIdeal.RefValue

open Cert.ReferenceIdeal Cert.ReferenceIdeal.ReadP Idealize.ShloMosaic Idealize.ShloMosaic.ValueIdx

/-- The last stage of the reference is `mlp` of the propagation stage and the two weight arguments. -/
theorem result_eq (x0 : (⟨S50000x128, .f32⟩ : BufTy).Contents (Elt Ideal)) (x1 : (⟨S128x256, .f32⟩ : BufTy).Contents (Elt Ideal))
    (x2 : (⟨S256x256, .f32⟩ : BufTy).Contents (Elt Ideal)) (x3 : (⟨S2x800000, .i32⟩ : BufTy).Contents (Elt Ideal)) :
    val_main_v48 (F := Ideal) x0 x1 x2 x3 = Cert.Mlp.mlp (val_main_v44 (F := Ideal) x0 x3) x1 x2 := by
  funext i
  obtain ⟨p, q, rfl⟩ : ∃ (p : Fin 50000) (q : Fin 256), i = ix2 p q := ⟨i 0, i 1, eq_ix2 i⟩
  have el47 : ∀ k : Fin 256, lidx_main_v47 (ix2 p q) k = ix2 p k := fun k => funext fun a => Fin.ext (by
    match a with
    | ⟨0, _⟩ => rfl
    | ⟨1, _⟩ => rfl)
  have er47 : ∀ k : Fin 256, ridx_main_v47 (ix2 p q) k = ix2 k q := fun k => funext fun a => Fin.ext (by
    match a with
    | ⟨0, _⟩ => rfl
    | ⟨1, _⟩ => rfl)
  have el45 : ∀ (j : Fin 256) (k : Fin 128), lidx_main_v45 (ix2 p j) k = ix2 p k := fun j k => funext fun a => Fin.ext (by
    match a with
    | ⟨0, _⟩ => rfl
    | ⟨1, _⟩ => rfl)
  have er45 : ∀ (j : Fin 256) (k : Fin 128), ridx_main_v45 (ix2 p j) k = ix2 k j := fun j k => funext fun a => Fin.ext (by
    match a with
    | ⟨0, _⟩ => rfl
    | ⟨1, _⟩ => rfl)
  have z1 : ∀ j : S50000x256.Idx, val_main_call1_v0 (F := Ideal) j = 0 := fun j => by
    rw [val_main_call1_v0_apply, val_main_call1_cst_apply, Ideal.ofBits_def, Ideal.ofBits_zero_f32]
  have z2 : ∀ j : S50000x256.Idx, val_main_call2_v0 (F := Ideal) j = 0 := fun j => by
    rw [val_main_call2_v0_apply, val_main_call2_cst_apply, Ideal.ofBits_def, Ideal.ofBits_zero_f32]
  have inner : ∀ j : Fin 256, val_main_v46 (F := Ideal) x0 x1 x3 (ix2 p j)
      = Cert.Mlp.entry (fun k : Fin 128 => val_main_v44 (F := Ideal) x0 x3 (ix2 p k)) x1 j := fun j => by
    rw [val_main_v46_apply, val_main_v45_apply, z1, Ideal.maximumf_def]
    generalize val_main_v44 (F := Ideal) x0 x3 = H
    simp only [el45, er45]
    rfl
  rw [val_main_v48_apply, val_main_v47_apply, z2, Ideal.maximumf_def]
  simp only [el47, er47, inner]
  generalize val_main_v44 (F := Ideal) x0 x3 = H
  rfl

end Cert.ReferenceIdeal.RefValue

end
-- ==== Proof.LibTRefPlain.lean ====
/-
  Typed-reference host operations are the plain ones.

  A host operation over typed references applies its function between the references' own buffer types, moved there from
  the carried types along the references' type equations. When the function at the carried types and a function at the
  buffers' own types are the same function (heterogeneously: the two types are equal by those same equations), the typed
  operation IS the plain operation with that function: substitute the type equations and nothing is left to move.
-/
import Idealize.ShloMosaic.Lib.StableHlo

noncomputable section

namespace Idealize.ShloMosaic.StableHlo.TRef

variable {τ : Topo} {sig : RefSig} {Val : EltTy → Type}

/-- A constant written through a typed reference is the plain write of the same constant. -/
theorem nullary_eq_plain {Ty : BufTy} (y : TRef sig Ty) (v : Ty.Contents Val) (v' : y.ref.ty.Contents Val) (h : HEq v v') :
    TRef.nullary (τ := τ) y v = StableHlo.nullary y.ref v' y.dev := by
  obtain ⟨ry, hy, dy, uy⟩ := y
  subst hy
  cases h
  rfl

/-- A one-operand operation over typed references is the plain one with the same function. -/
theorem unary_eq_plain {Tx Ty : BufTy} (x : TRef sig Tx) (y : TRef sig Ty) (f : Tx.Contents Val → Ty.Contents Val)
    (g : x.ref.ty.Contents Val → y.ref.ty.Contents Val) (h : HEq f g) :
    TRef.unary (τ := τ) x y f = StableHlo.unary x.ref y.ref g x.dev y.dev := by
  obtain ⟨rx, hx, dx, ux⟩ := x
  obtain ⟨ry, hy, dy, uy⟩ := y
  subst hx
  subst hy
  cases h
  rfl

/-- A two-operand operation over typed references is the plain one with the same function. -/
theorem binary_eq_plain {Ta Tb Ty : BufTy} (a : TRef sig Ta) (b : TRef sig Tb) (y : TRef sig Ty)
    (f : Ta.Contents Val → Tb.Contents Val → Ty.Contents Val)
    (g : a.ref.ty.Contents Val → b.ref.ty.Contents Val → y.ref.ty.Contents Val) (h : HEq f g) :
    TRef.binary (τ := τ) a b y f = StableHlo.binary a.ref b.ref y.ref g a.dev b.dev y.dev := by
  obtain ⟨ra, ha, da, ua⟩ := a
  obtain ⟨rb, hb, db, ub⟩ := b
  obtain ⟨ry, hy, dy, uy⟩ := y
  subst ha
  subst hb
  subst hy
  cases h
  rfl

/-- A three-operand operation over typed references is the plain one with the same function. -/
theorem ternary_eq_plain {Tc Ta Tb Ty : BufTy} (c : TRef sig Tc) (a : TRef sig Ta) (b : TRef sig Tb) (y : TRef sig Ty)
    (f : Tc.Contents Val → Ta.Contents Val → Tb.Contents Val → Ty.Contents Val)
    (g : c.ref.ty.Contents Val → a.ref.ty.Contents Val → b.ref.ty.Contents Val → y.ref.ty.Contents Val) (h : HEq f g) :
    TRef.ternary (τ := τ) c a b y f = StableHlo.ternary c.ref a.ref b.ref y.ref g c.dev a.dev b.dev y.dev := by
  obtain ⟨rc, hc, dc, uc⟩ := c
  obtain ⟨ra, ha, da, ua⟩ := a
  obtain ⟨rb, hb, db, ub⟩ := b
  obtain ⟨ry, hy, dy, uy⟩ := y
  subst hc
  subst ha
  subst hb
  subst hy
  cases h
  rfl

/-- A reshape over typed references is the plain reshape (its two side conditions are propositions). -/
theorem reshape_eq_plain {Tx Ty : BufTy} (x : TRef sig Tx) (y : TRef sig Ty) (he : Tx.elt = Ty.elt) (hn : Tx.shape.ShapeCasts Ty.shape)
    (he' : x.ref.ty.elt = y.ref.ty.elt) (hn' : x.ref.ty.shape.ShapeCasts y.ref.ty.shape) :
    TRef.reshape (τ := τ) (Val := Val) x y he hn = StableHlo.reshape x.ref y.ref he' hn' x.dev y.dev := rfl

end Idealize.ShloMosaic.StableHlo.TRef

end
-- ==== Proof.Prefix.lean ====
/-
  What the kernel's region finds in the feature array.

  Before the region the kernel's program runs, on the host, the same propagation step as the reference: self loops
  appended to the edge list, the in-degree of every node by an accumulating scatter of ones, its reciprocal square root
  where positive, the per-edge coefficient as a product of two gathered entries, the source rows gathered and scaled, and
  an accumulating scatter of the scaled rows into a zero array.  The array the region's first window reads is therefore
  the reference's propagation stage, as a function of the node features and the edge list.

  The two lines of the selection (reciprocal square root where the degree is positive, zero elsewhere) are written over
  typed references; each is the plain operation with the same function, and is restated so before the host
  operations' results are read off.
-/
import proofs.«178463_j80994493268501_1_alg».proof.Proof.Gen.KernelIdeal.Frame
import proofs.«178463_j80994493268501_1_alg».proof.Proof.RefRead
import proofs.«178463_j80994493268501_1_alg».proof.Proof.LibTRefPlain

set_option maxRecDepth 16384

noncomputable section

namespace Cert.KernelIdeal.Prefix

open Cert.KernelIdeal Cert.KernelIdeal.Gen Idealize.ShloMosaic Idealize.ShloMosaic.TcCoe Idealize.SL.Sem
open Idealize.ShloMosaic.StableHlo

/-- The splat of the zero scalar over the nodes, written over typed references, is the plain splat. -/
theorem where_splat :
    (StableHlo.TRef.unary (τ := τ) (Val := Elt Ideal) (.of main_cst_2 : StableHlo.TRef sig ⟨S_, .f32⟩)
        (.of main_call0_v0 : StableHlo.TRef sig ⟨S50000, .f32⟩) (broadcastInDim S50000 ![] bcast_S_S50000))
      = StableHlo.unary main_cst_2 main_call0_v0
          (broadcastInDim S50000 ![] bcast_S_S50000 : (⟨S_, .f32⟩ : BufTy).Contents (Elt Ideal) → (⟨S50000, .f32⟩ : BufTy).Contents (Elt Ideal)) :=
  StableHlo.TRef.unary_eq_plain _ _ _ _ HEq.rfl

/-- The selection between the reciprocal square root and the zero splat, written over typed references, is the plain
    selection. -/
theorem where_select :
    (StableHlo.TRef.ternary (τ := τ) (Val := Elt Ideal) (.of main_v14 : StableHlo.TRef sig ⟨S50000, .i1⟩)
        (.of main_v15 : StableHlo.TRef sig ⟨S50000, .f32⟩) (.of main_call0_v0 : StableHlo.TRef sig ⟨S50000, .f32⟩)
        (.of main_v16 : StableHlo.TRef sig ⟨S50000, .f32⟩) select)
      = StableHlo.ternary main_v14 main_v15 main_call0_v0 main_v16
          (select : (⟨S50000, .i1⟩ : BufTy).Contents (Elt Ideal) → (⟨S50000, .f32⟩ : BufTy).Contents (Elt Ideal)
            → (⟨S50000, .f32⟩ : BufTy).Contents (Elt Ideal) → (⟨S50000, .f32⟩ : BufTy).Contents (Elt Ideal)) :=
  StableHlo.TRef.ternary_eq_plain _ _ _ _ _ _ HEq.rfl

variable (m : (ℓ : Loc nD τ sig) → Buf (Elt Ideal) ℓ)

set_option maxHeartbeats 4000000 in
/-- The feature array as the region finds it is the propagation stage of the node features and the edge list. -/
theorem features_eq (c : Dev nD) :
    V m c main_v44 = Cert.ReferenceIdeal.ReadP.val_main_v44 (F := Ideal)
      (m ((c : Thread nD τ).loc main_arg0)) (m ((c : Thread nD τ).loc main_arg3)) := by
  dsimp only [V]
  simp only [hostOps0, hostOps0_1, hostOps0_2, List.flatten_cons, List.flatten_nil, List.append_nil, List.cons_append,
    List.nil_append, where_splat, where_select]
  after_results_simp
  rfl

end Cert.KernelIdeal.Prefix

end
-- ==== Proof.LibPlainDot.lean ====
import Idealize.ShloMosaic.Lib.ValueIdx
import Idealize.ShloMosaic.PureOps.Ideal.Laws

/-!
# A product of an R×K matrix by a K×C matrix, read at an entry

A matrix product whose dimension numbers contract the left operand's second axis with the right
operand's first, and keep the left's rows and the right's columns, has at the entry `(p, q)` the sum over
`k` of `x (p, k) * w (k, q)`.  The dimension numbers enter only through six facts: the contraction has one
axis, of extent `K`, and the four coordinates of the two operand indices.  Both the vector unit's matrix
product into a zero accumulator and the host's `dot_general` are that sum on the extended reals.
-/

noncomputable section

open scoped BigOperators

namespace Cert.LibPlainDot

open Idealize.ShloMosaic Idealize.ShloMosaic.ValueIdx

variable {R K C : Nat} (D : DotDims ⟨2, ![R, K]⟩ ⟨2, ![K, C]⟩ ⟨2, ![R, C]⟩)

/-- The contraction's sum re-indexed by the one contracted coordinate. -/
theorem sum_contr (hr : D.contr.rank = 1) (hs : D.contr.size ⟨0, by omega⟩ = K)
    (l0 : ∀ (i : (⟨2, ![R, C]⟩ : Shape).Idx) (q : D.contr.Idx), (D.lhsIdx i q 0).val = (i 0).val)
    (l1 : ∀ (i : (⟨2, ![R, C]⟩ : Shape).Idx) (q : D.contr.Idx), (D.lhsIdx i q 1).val = (q ⟨0, by omega⟩).val)
    (r0 : ∀ (i : (⟨2, ![R, C]⟩ : Shape).Idx) (q : D.contr.Idx), (D.rhsIdx i q 0).val = (q ⟨0, by omega⟩).val)
    (r1 : ∀ (i : (⟨2, ![R, C]⟩ : Shape).Idx) (q : D.contr.Idx), (D.rhsIdx i q 1).val = (i 1).val)
    (x : (⟨2, ![R, K]⟩ : Shape).Idx → EReal) (w : (⟨2, ![K, C]⟩ : Shape).Idx → EReal) (i : (⟨2, ![R, C]⟩ : Shape).Idx) :
    ∑ k : D.contr.Idx, x (D.lhsIdx i k) * w (D.rhsIdx i k) = ∑ k : Fin K, x (ix2 (i 0) k) * w (ix2 k (i 1)) := by
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact l0 _ _
    | ⟨1, _⟩ => exact (l1 _ _).trans hk)
  have er : D.rhsIdx i ((contrEquiv1 D K hr hs).symm k) = ix2 k (i 1) := funext fun a => Fin.ext (by
    match a with
    | ⟨0, _⟩ => exact (r0 _ _).trans hk
    | ⟨1, _⟩ => exact r1 _ _)
  exact congrArg₂ (· * ·) (congrArg x el) (congrArg w er)

end Cert.LibPlainDot

end
-- ==== Proof.LibPlainDims.lean ====
/-
  The sum of a plain rows-by-columns contraction, from the dimension record's six fields.

  When a record contracts the left operand's axis 1 with the right operand's axis 0, keeps the left's axis 0 and the
  right's axis 1, and has no batch axes, the contraction has one axis of the shared extent, and the operand indices
  at a result entry `(p, q)` and a contraction position `k` are `(p, k)` and `(k, q)`. So the contraction's sum is
  `∑ k, x (p, k) · w (k, q)`.
-/
import proofs.«178463_j80994493268501_1_alg».proof.Proof.LibPlainDot

noncomputable section

open scoped BigOperators

namespace Cert.LibPlainDims

open Idealize.ShloMosaic Idealize.ShloMosaic.ValueIdx

variable {R K C : Nat} (D : DotDims ⟨2, ![R, K]⟩ ⟨2, ![K, C]⟩ ⟨2, ![R, C]⟩)

/-- The sum over the contraction of a plain product is the sum over the shared extent. -/
theorem sum_plain (h1 : D.lhsContracting = [1]) (h2 : D.rhsContracting = [0]) (h3 : D.lhsNonContracting = [0])
    (h4 : D.rhsNonContracting = [1]) (h5 : D.lhsBatch = []) (h6 : D.rhsBatch = [])
    (x : (⟨2, ![R, K]⟩ : Shape).Idx → EReal) (w : (⟨2, ![K, C]⟩ : Shape).Idx → EReal) (i : (⟨2, ![R, C]⟩ : Shape).Idx) :
    ∑ k : D.contr.Idx, x (D.lhsIdx i k) * w (D.rhsIdx i k) = ∑ k : Fin K, x (ix2 (i 0) k) * w (ix2 k (i 1)) := by
  have hr : D.contr.rank = 1 := by rw [D.rank_contr, h1]; rfl
  have hs : D.contr.size ⟨0, by omega⟩ = K := by
    simp [DotDims.contr, h1, Shape.ofList]
  refine Cert.LibPlainDot.sum_contr D hr hs ?_ ?_ ?_ ?_ x w i
  · intro i q
    have key : ∀ (a b : Fin 2), a = b → (i a).val = (i b).val := fun a b h => by rw [h]
    simp only [DotDims.lhsIdx, h3, h5]
    simp
    exact key _ _ (Fin.ext (by simp [h5, h3]))
  · intro i q
    exact D.lhsIdx_val_of_single h1 i q
  · intro i q
    exact D.rhsIdx_val_of_single h2 i q
  · intro i q
    have key : ∀ (a b : Fin 2), a = b → (i a).val = (i b).val := fun a b h => by rw [h]
    simp only [DotDims.rhsIdx, h4, h6]
    simp
    exact key _ _ (Fin.ext (by simp [h5, h3, h4]))

end Cert.LibPlainDims

end
-- ==== Proof.Payload.lean ====
/-
  What the kernel body stores, entry by entry.

  The body reads a block of 2000 rows of the propagated features and the two whole weight matrices, and stores
  `max (t · w1) 0` with `t = max (x · w0) 0`, each product taken by the matrix unit into a zero accumulator, the operands
  first narrowed to bf16.  On the extended reals a change of float format is the identity and the product into a zero
  accumulator is the plain sum over the contracted axis, so the stored entry `(p, q)` is the two rectified layers applied
  to row `p` of the block, at column `q`.
-/
import proofs.«178463_j80994493268501_1_alg».proof.Proof.Gen.KernelIdeal.Skeleton
import proofs.«178463_j80994493268501_1_alg».proof.Proof.LibPlainDims
import proofs.«178463_j80994493268501_1_alg».proof.Proof.Mlp
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- One layer as the vector unit computes it: the matrix product into a zero accumulator, then the maximum with a
    splat of zero, at the entry `(p, q)`, is the rectified dense layer applied to row `p` of the left operand. -/
theorem layer_apply {R K C : Nat} (D : DotDims ⟨2, ![R, K]⟩ ⟨2, ![K, C]⟩ ⟨2, ![R, C]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![R, K]⟩ .bf16) (w : FVec Ideal ⟨2, ![K, C]⟩ .bf16) (p : Fin R) (q : Fin C) :
    maximumf (matmul D none x w (constant (F := Ideal) ⟨2, ![R, C]⟩ .f32 0x00000000#32))
        (broadcast ⟨2, ![R, C]⟩ (Scalar.ofBits (F := Ideal) .f32 0x00000000#32)) (ix2 p q)
      = Cert.Mlp.entry (fun k => x (ix2 p k)) w q := by
  show max (FloatOps.matmul D none x w (constant (F := Ideal) ⟨2, ![R, C]⟩ .f32 0x00000000#32) (ix2 p q))
      (Ideal.ofBits .f32 0x00000000#32) = _
  rw [Ideal.matmul_constant_zero_apply, Cert.LibPlainDims.sum_plain D h1 h2 h3 h4 h5 h6, Ideal.ofBits_zero_f32]
  rfl

/-- The stored value at the entry `(p, q)` of the block: the two rectified layers applied to row `p` of the loaded
    feature block, with the loaded weights, at column `q`. -/
theorem pay_eq (x0 : Vec Ideal S2000x128 .f32) (x1 : Vec Ideal S128x256 .f32) (x2 : Vec Ideal S256x256 .f32)
    (p : Fin 2000) (q : Fin 256) :
    k0_pay1 (F := Ideal) x0 x1 x2 (ix2 p q) = Cert.Mlp.mlpRow (fun k => x0 (ix2 p k)) x1 x2 q := by
  unfold k0_pay1
  rw [shapeCast_self]
  refine (layer_apply dot_S2000x256_S256x256_S2000x256_1_0_0_1_n_n rfl rfl rfl rfl rfl rfl _ _ p q).trans ?_
  unfold Cert.Mlp.mlpRow
  refine congrArg (fun r : Fin 256 → EReal => Cert.Mlp.entry r x2 q) (funext fun j => ?_)
  exact layer_apply dot_S2000x128_S128x256_S2000x256_1_0_0_1_n_n rfl rfl rfl rfl rfl rfl _ _ p j

end Cert.KernelIdeal.Payload

end
-- ==== Proof.Blocks.lean ====
/-
  From the blocks the kernel writes to the whole result array.

  The grid has 25 points.  At point `t` the kernel reads rows `2000·t … 2000·t + 1999` of the propagated features (all
  128 columns) and the whole of the two weight matrices, and writes rows `2000·t … 2000·t + 1999` of the result (all 256
  columns).  The stored entry `(p, q)` of the block is the two rectified layers applied to row `p` of the feature block,
  which is row `2000·t + p` of the features; so what point `t` writes back is block `t` of `mlp` of the whole feature
  array.  The 25 blocks tile the 50000 rows, so the result array ends holding `mlp` of the features everywhere.

  The reading of blocks is stated for arbitrary arrays: which arrays the region finds plays no part in it.
-/
import proofs.«178463_j80994493268501_1_alg».proof.Proof.Gen.KernelIdeal.Value
import proofs.«178463_j80994493268501_1_alg».proof.Proof.Payload

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets : (![0, 0] : Fin 2 → Nat) = fun _ => 0 := funext fun a => by fin_cases a <;> rfl

/-- The printed index maps over the grid: the feature window moves with the result window along the rows and stays at
    column block 0; the two weight windows stay at block (0, 0); the result's row block index is at most 24 and its
    column block index is 0. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 24 ∧ win0_3.index t (1 : Fin 2) = 0 :=
  (by decide +kernel : ∀ t : Fin grid0.N, _)

/-- Every one of the 25 row blocks of the result is some point's. -/
theorem idx_onto : ∀ b : Fin 25, ∃ t : Fin cfg0.N, win0_3.index t = ![b.val, 0] :=
  (by decide +kernel : ∀ b : Fin 25, ∃ t : Fin grid0.N, win0_3.index t = ![b.val, 0])

/-- The feature window's block at point `t` of any array `X`, entry `(p, k)`, is `X` in row `2000·(row block) + p`. -/
theorem features_blk (t : Fin cfg0.N) (X : (⟨S50000x128, .f32⟩ : BufTy).Contents (Elt Ideal)) (p : Fin 2000) (k : Fin 128)
    (r : Fin 50000) (hr : r.val = win0_3.index t (0 : Fin 2) * 2000 + p.val) :
    ((cfg0.win 0).blk t).view.read (Elt Ideal) X (ix2 p k) = X (ix2 r k) := by
  obtain ⟨e0, e1, -⟩ := idx_facts t
  show X (((cfg0.win 0).blk t).view.emb (ix2 p k)) = X (ix2 r k)
  refine congrArg X (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The first weight window's block of any array is the whole array, at every point. -/
theorem weights0_blk (t : Fin cfg0.N) (X : (⟨S128x256, .f32⟩ : BufTy).Contents (Elt Ideal)) (y : S128x256.Idx) :
    ((cfg0.win 1).blk t).view.read (Elt Ideal) X y = X y := by
  obtain ⟨-, -, e2, e3, -⟩ := idx_facts t
  show X (((cfg0.win 1).blk t).view.emb y) = X y
  refine congrArg X (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The second weight window's block of any array is the whole array, at every point. -/
theorem weights1_blk (t : Fin cfg0.N) (X : (⟨S256x256, .f32⟩ : BufTy).Contents (Elt Ideal)) (y : S256x256.Idx) :
    ((cfg0.win 2).blk t).view.read (Elt Ideal) X y = X y := by
  obtain ⟨-, -, -, -, e4, e5, -⟩ := idx_facts t
  show X (((cfg0.win 2).blk t).view.emb y) = X y
  refine congrArg X (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- For any three arrays, the body's result on their blocks at point `t`, read through the result window, is block
    `t` of `mlp` of the three arrays. -/
theorem block_eq (t : Fin cfg0.N) (X0 : (⟨S50000x128, .f32⟩ : BufTy).Contents (Elt Ideal))
    (X1 : (⟨S128x256, .f32⟩ : BufTy).Contents (Elt Ideal)) (X2 : (⟨S256x256, .f32⟩ : BufTy).Contents (Elt Ideal)) :
    (cfg0.win 3).cut (grid0.coords t)
        (out0_3 (((cfg0.win 0).blk t).view.read (Elt Ideal) X0) (((cfg0.win 1).blk t).view.read (Elt Ideal) X1)
          (((cfg0.win 2).blk t).view.read (Elt Ideal) X2))
      = ((cfg0.win 3).blk t).view.read (Elt Ideal) (Cert.Mlp.mlp X0 X1 X2) := by
  unfold out0_3
  rw [View.canon_unit_zero zero_offsets]
  simp only [View.ld_unit_zero (S := S2000x128) zero_offsets, View.ld_unit_zero (S := S128x256) zero_offsets,
    View.ld_unit_zero (S := S256x256) zero_offsets]
  funext y
  obtain ⟨p, q, rfl⟩ : ∃ (p : Fin 2000) (q : Fin 256), y = ix2 p q := ⟨y 0, y 1, eq_ix2 y⟩
  obtain ⟨e0, e1, e2, e3, e4, e5, e6, e7⟩ := idx_facts t
  show k0_pay1 (((cfg0.win 0).blk t).view.read (Elt Ideal) X0) (((cfg0.win 1).blk t).view.read (Elt Ideal) X1)
      (((cfg0.win 2).blk t).view.read (Elt Ideal) X2) (ix2 p q)
    = Cert.Mlp.mlp X0 X1 X2 (((cfg0.win 3).blk t).view.emb (ix2 p q))
  refine (Cert.KernelIdeal.Payload.pay_eq (((cfg0.win 0).blk t).view.read (Elt Ideal) X0)
    (((cfg0.win 1).blk t).view.read (Elt Ideal) X1) (((cfg0.win 2).blk t).view.read (Elt Ideal) X2) p q).trans ?_
  have hr : win0_3.index t (0 : Fin 2) * 2000 + p.val < 50000 := by omega
  refine Eq.trans ?_ (Cert.Mlp.mlp_apply_of_val X0 X1 X2 (((cfg0.win 3).blk t).view.emb (ix2 p q))
    ⟨win0_3.index t (0 : Fin 2) * 2000 + p.val, hr⟩ q ?_ ?_).symm
  · exact Cert.Mlp.mlpRow_congr q (fun k => features_blk t X0 p k ⟨win0_3.index t (0 : Fin 2) * 2000 + p.val, hr⟩ rfl)
      (weights0_blk t X1) (weights1_blk t X2)
  · show win0_3.index t (0 : Fin 2) * 2000 + 1 * p.val = win0_3.index t (0 : Fin 2) * 2000 + p.val; omega
  · show win0_3.index t (1 : Fin 2) * 256 + 1 * q.val = q.val; omega

/-- An index of the result array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v45).slice (win0_3.rect t)).set ↔ _
  rw [View.set_slice_whole, Rect.mem_set_unit]
  exact Iff.rfl

/-- Every index of the result array is in the block of the point whose row block holds its row. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 256 ≤ (i 1).val ∧ (i 1).val < win0_3.index t (1 : Fin 2) * 256 + 256
    omega

variable (m : (ℓ : Loc nD τ sig) → Buf (Elt Ideal) ℓ)

/-- What point `t` writes back is block `t` of `mlp` of the three arrays the input windows read, as the region finds
    them. -/
theorem flushed_eq (c : Dev nD) (t : Fin cfg0.N) :
    (dats m 0 c).flushed 3 t = ((cfg0.win 3).blk t).view.read (Elt Ideal)
      (Cert.Mlp.mlp (V m c (Pipeline.arrRef spec0 0)) (V m c (Pipeline.arrRef spec0 1)) (V m c (Pipeline.arrRef spec0 2))) :=
  (Cert.KernelIdeal.Value.flushed3 m c t).trans
    (block_eq t (V m c (Pipeline.arrRef spec0 0)) (V m c (Pipeline.arrRef spec0 1)) (V m c (Pipeline.arrRef spec0 2)))

/-- The result array after the run is `mlp` of the three arrays the input windows read, as the region finds them. -/
theorem final (c : Dev nD) :
    (dats m 0 c).arrAt 3 cfg0.N
      = Cert.Mlp.mlp (V m c (Pipeline.arrRef spec0 0)) (V m c (Pipeline.arrRef spec0 1)) (V m c (Pipeline.arrRef spec0 2)) :=
  (dats m 0 c).arrAt_eq_of_cover 3 _ (fun t _ => flushed_eq m c t) cover

end Cert.KernelIdeal.Blocks

end
-- ==== Proof.lean ====
/-
  A graph convolution's propagation step followed by two rectified dense layers: the kernel against its reference.

  Both programs compute, on the host and by the same operations, the propagated features `h` of the node features and
  the edge list (self loops added, symmetric degree normalisation, gather, scale, accumulating scatter).  The reference
  then forms `max (max (h · W0) 0 · W1) 0` on whole arrays.  The kernel forms the same expression block by block: a grid
  of 25 points, point `t` reading rows `2000·t … 2000·t + 1999` of `h` and the whole of `W0` and `W1`, narrowing its
  operands to bf16 and multiplying on the matrix unit into a zero accumulator.  On the extended reals a change of float
  format is the identity and both kinds of product are the plain sum over the contracted axis, and a row of the result
  depends on the same row of `h` only; so each block the kernel writes is the corresponding block of rows of the
  reference's result, and the 25 blocks tile the array.  No law beyond this re-reading is used: the two sides are the same
  expression entry by entry, so the inputs' finiteness is never opened.

  The idealization rewrote no operation of the kernel, so the kernel's idealization is its own text read on the extended
  reals and the corresponding claim is trivial.  The three frames are the generated ones: the two kernels' frame
  certificates, and the reference's run with the result dropped.
-/
import proofs.«178463_j80994493268501_1_alg».proof.Defs
import proofs.«178463_j80994493268501_1_alg».proof.Proof.Gen.Kernel
import proofs.«178463_j80994493268501_1_alg».proof.Proof.Gen.Kernel.Skeleton
import proofs.«178463_j80994493268501_1_alg».proof.Proof.Gen.Kernel.Launch
import proofs.«178463_j80994493268501_1_alg».proof.Proof.Gen.Kernel.Points
import proofs.«178463_j80994493268501_1_alg».proof.Proof.Gen.Kernel.Frame
import proofs.«178463_j80994493268501_1_alg».proof.Proof.Gen.KernelIdeal
import proofs.«178463_j80994493268501_1_alg».proof.Proof.Gen.KernelIdeal.Skeleton
import proofs.«178463_j80994493268501_1_alg».proof.Proof.Gen.KernelIdeal.Launch
import proofs.«178463_j80994493268501_1_alg».proof.Proof.Gen.KernelIdeal.Points
import proofs.«178463_j80994493268501_1_alg».proof.Proof.Gen.KernelIdeal.Frame
import proofs.«178463_j80994493268501_1_alg».proof.Proof.Gen.KernelIdeal.Value
import proofs.«178463_j80994493268501_1_alg».proof.Proof.Gen.ReferenceIdeal
import proofs.«178463_j80994493268501_1_alg».proof.Proof.Gen.Pre_finite_inputs
import proofs.«178463_j80994493268501_1_alg».proof.Proof.RefRun
import proofs.«178463_j80994493268501_1_alg».proof.Proof.RefRead
import proofs.«178463_j80994493268501_1_alg».proof.Proof.RefIsMlp
import proofs.«178463_j80994493268501_1_alg».proof.Proof.Prefix
import proofs.«178463_j80994493268501_1_alg».proof.Proof.Blocks
import Idealize.ShloMosaic.Adequacy
import Idealize.ShloMosaic.Init

noncomputable section

namespace Cert.Proof

open Idealize.ShloMosaic Idealize.ShloMosaic.TcCoe Idealize.SL.Sem

/-- The two rectified layers applied to the propagated features, as a function of the four argument arrays: what both
    programs leave in their result. -/
def result (x0 : (⟨2, ![50000, 128]⟩ : Shape).Idx → EReal) (w0 : (⟨2, ![128, 256]⟩ : Shape).Idx → EReal)
    (w1 : (⟨2, ![256, 256]⟩ : Shape).Idx → EReal) (e : (⟨2, ![2, 800000]⟩ : Shape).Idx → BitVec 32) :
    (⟨2, ![50000, 256]⟩ : Shape).Idx → EReal :=
  Cert.Mlp.mlp (Cert.ReferenceIdeal.ReadP.val_main_v44 (F := Ideal) x0 e) w0 w1

/-- `mlp` of equal arrays. -/
theorem mlp_congr {a a' : (⟨2, ![50000, 128]⟩ : Shape).Idx → EReal} {b b' : (⟨2, ![128, 256]⟩ : Shape).Idx → EReal}
    {c c' : (⟨2, ![256, 256]⟩ : Shape).Idx → EReal} (h : a = a') (h0 : b = b') (h1 : c = c') :
    Cert.Mlp.mlp a b c = Cert.Mlp.mlp a' b' c' := by
  subst h; subst h0; subst h1; rfl

section Kernel

open Cert.KernelIdeal Cert.KernelIdeal.Gen

/-- The kernel's result array after the run, as a function of the argument arrays: the blocks assembled, the feature
    array the region finds being the propagation stage and the weight arrays being the arguments, untouched. -/
theorem kernel_value (m : (ℓ : Loc nD τ sig) → Buf (Elt Ideal) ℓ) (c : Dev nD) :
    (dats m 0 c).arrAt 3 cfg0.N = result (m ((c : Thread nD τ).loc main_arg0)) (m ((c : Thread nD τ).loc main_arg1))
      (m ((c : Thread nD τ).loc main_arg2)) (m ((c : Thread nD τ).loc main_arg3)) :=
  (Cert.KernelIdeal.Blocks.final m c).trans
    (mlp_congr (Cert.KernelIdeal.Prefix.features_eq m c) (V_main_arg1 m c) (V_main_arg2 m c))

end Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with `result` of the argument arrays in their result. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_value m c), (h c).2⟩)
      (Cert.KernelIdeal.Value.run_blocks m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v48_eq, Cert.ReferenceIdeal.RefValue.result_eq, (hagree c).1, (hagree c).2.1,
      (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
